-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1024 : Shape := ⟨2, ![256, 1024]⟩
abbrev S1024 : Shape := ⟨1, ![1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256x1024 .f32) (main_arg5 : FVec F S1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S65536x256 .f32) (main_arg1 : FVec F S65536x256 .f32) (main_arg2 : FVec F S65536x256 .f32) (main_arg3 : FVec F S256x1024 .f32) (main_arg4 : FVec F S256x1024 .f32) (main_arg5 : FVec F S1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_v13 main_v16
-- ==== Kernel.lean ====
abbrev S65536x256 : Shape := ⟨2, ![65536, 256]⟩
abbrev S256x1024 : Shape := ⟨2, ![256, 1024]⟩
abbrev S1024 : Shape := ⟨1, ![1024]⟩
abbrev S512x1024 : Shape := ⟨2, ![512, 1024]⟩
abbrev S1x1024 : Shape := ⟨2, ![1, 1024]⟩
abbrev S1024x256 : Shape := ⟨2, ![1024, 256]⟩
abbrev S1024x512 : Shape := ⟨2, ![1024, 512]⟩
abbrev S1024x1024 : Shape := ⟨2, ![1024, 1024]⟩

abbrev nBuf : Space → Nat
  | .hbm => 11
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x1024, .f32⟩
  | .hbm, ⟨4, _⟩ => ⟨S256x1024, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S1x1024, .f32⟩
  | .hbm, ⟨9, _⟩ => ⟨S65536x256, .f32⟩
  | .hbm, ⟨10, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S512x1024, .bf16⟩
  | .local _ .vmem, ⟨7, _⟩ => ⟨S1x1024, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S256x1024_S256x1024_S512x1024_d0 : Shape.Concatenates [S256x1024, S256x1024] S512x1024 0
  bitsLt_bf16_f32 : FTy.bits .bf16 < FTy.bits .f32
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1024x256_S1024x256_S1024x512_d1 : Shape.Concatenates [S1024x256, S1024x256] S1024x512 1
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S65536x256.size a
  hwx0_5 : ∀ i : grid0.Coords, EltTy.bits .f32 = 32 ∨ (Rect.block (s := S65536x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1024 : Shape := ⟨2, ![256, 1024]⟩
abbrev S1024 : Shape := ⟨1, ![1024]⟩
abbrev S65536x1024 : Shape := ⟨2, ![65536, 1024]⟩
abbrev S1x1024 : Shape := ⟨2, ![1, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x1024, .f32⟩
  | .hbm, ⟨4, _⟩ => ⟨S256x1024, .f32⟩
  | .hbm, ⟨5, _⟩ => ⟨S1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S1x1024, .f32⟩
  | .hbm, ⟨10, _⟩ => ⟨S65536x1024, .f32⟩
  | .hbm, ⟨11, _⟩ => ⟨S65536x1024, .f32⟩
  | .hbm, ⟨12, _⟩ => ⟨S65536x256, .f32⟩
  | .hbm, ⟨13, _⟩ => ⟨S65536x256, .f32⟩
  | .hbm, ⟨14, _⟩ => ⟨S65536x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S_, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S_, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S_, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.Spec.lean ====
/-
  One step of a long short-term memory cell, entry by entry, on the extended reals.

  For a batch row `r` the pre-activation of gate column `j` is
    z(r, j) = (Σ_k x(r, k) · W(k, j) + Σ_k h(r, k) · U(k, j)) + b(j),
  the two sums over the 256 input and the 256 hidden features. The 1024 gate columns are four groups of 256: the
  input gate (offset 0), the forget gate (offset 256), the candidate (offset 512) and the output gate (offset 768).
  With σ the logistic function, the new cell state and the new hidden state at `(r, q)` are
    c'(r, q) = σ(z(r, 256 + q)) · c(r, q) + σ(z(r, q)) · tanh(z(r, 512 + q)),
    h'(r, q) = σ(z(r, 768 + q)) · tanh(c'(r, q)).
  Also here: a sum over 512 terms is the sum of its first 256 terms plus the sum of its last 256 terms; this is what
  makes one product of the row `[x(r, ·), h(r, ·)]` with the stacked matrix `[W; U]` the sum of the two products.
  It holds in any additive commutative monoid, so on the extended reals it needs no finiteness.
-/
import Idealize.ShloMosaic.PureOps.Ideal
import Idealize.ShloMosaic.Lib.ValueIdx
open scoped BigOperators
noncomputable section
namespace Cert.Lstm
open Idealize.ShloMosaic Idealize.ShloMosaic.ValueIdx

/-- An `a × b` array of extended reals. -/
abbrev Mat (a b : Nat) : Type := (⟨2, ![a, b]⟩ : Shape).Idx → EReal
/-- A vector of `a` extended reals. -/
abbrev Row (a : Nat) : Type := (⟨1, ![a]⟩ : Shape).Idx → EReal

/-- Column `q` of the input gate. -/
def colI (q : Fin 256) : Fin 1024 := ⟨q.val, by omega⟩
/-- Column `q` of the forget gate. -/
def colF (q : Fin 256) : Fin 1024 := ⟨256 + q.val, by omega⟩
/-- Column `q` of the candidate. -/
def colG (q : Fin 256) : Fin 1024 := ⟨512 + q.val, by omega⟩
/-- Column `q` of the output gate. -/
def colO (q : Fin 256) : Fin 1024 := ⟨768 + q.val, by omega⟩

/-- Position `k` of the first half of 512 positions. -/
def lo (k : Fin 256) : Fin 512 := ⟨k.val, by omega⟩
/-- Position `k` of the second half of 512 positions. -/
def hi (k : Fin 256) : Fin 512 := ⟨256 + k.val, by omega⟩

/-- The pre-activation `z(r, j)`. -/
def pre (x h : Mat 65536 256) (W U : Mat 256 1024) (b : Row 1024) (r : Fin 65536) (j : Fin 1024) : EReal :=
  ((∑ k : Fin 256, x (ix2 r k) * W (ix2 k j)) + ∑ k : Fin 256, h (ix2 r k) * U (ix2 k j)) + b (ix1 j)

/-- The new cell state `c'(r, q)`. -/
def cellAt (x h c : Mat 65536 256) (W U : Mat 256 1024) (b : Row 1024) (r : Fin 65536) (q : Fin 256) : EReal :=
  Ideal.logistic (pre x h W U b r (colF q)) * c (ix2 r q)
    + Ideal.logistic (pre x h W U b r (colI q)) * Ideal.tanh (pre x h W U b r (colG q))

/-- The new hidden state `h'(r, q)`. -/
def hiddenAt (x h c : Mat 65536 256) (W U : Mat 256 1024) (b : Row 1024) (r : Fin 65536) (q : Fin 256) : EReal :=
  Ideal.logistic (pre x h W U b r (colO q)) * Ideal.tanh (cellAt x h c W U b r q)

/-- The new cell state as an array. -/
def cellNew (x h c : Mat 65536 256) (W U : Mat 256 1024) (b : Row 1024) : Mat 65536 256 :=
  fun i => cellAt x h c W U b (i 0) (i 1)

/-- The new hidden state as an array. -/
def hiddenNew (x h c : Mat 65536 256) (W U : Mat 256 1024) (b : Row 1024) : Mat 65536 256 :=
  fun i => hiddenAt x h c W U b (i 0) (i 1)

theorem cellNew_ix2 (x h c : Mat 65536 256) (W U : Mat 256 1024) (b : Row 1024) (r : Fin 65536) (q : Fin 256) :
    cellNew x h c W U b (ix2 r q) = cellAt x h c W U b r q := rfl

theorem hiddenNew_ix2 (x h c : Mat 65536 256) (W U : Mat 256 1024) (b : Row 1024) (r : Fin 65536) (q : Fin 256) :
    hiddenNew x h c W U b (ix2 r q) = hiddenAt x h c W U b r q := rfl

/-- A sum of 512 terms is the sum of the first 256 plus the sum of the last 256. -/
theorem sum_halves {M : Type*} [AddCommMonoid M] (f : Fin 512 → M) :
    ∑ k : Fin 512, f k = (∑ k : Fin 256, f (lo k)) + ∑ k : Fin 256, f (hi k) := by
  have e := Fin.sum_univ_add (M := M) (a := 256) (b := 256) f
  refine e.trans ?_
  refine congrArg₂ (· + ·) (Finset.sum_congr rfl fun k _ => ?_) (Finset.sum_congr rfl fun k _ => ?_)
  · exact congrArg f (Fin.ext rfl)
  · exact congrArg f (Fin.ext rfl)

end Cert.Lstm
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Gate.lean ====
/-
  What one grid point of the kernel computes, entry by entry, from the blocks it loads.

  The body forms the row block `[X, H]` (1024 × 512: the point's 1024 rows of `x` beside its 1024 rows of `h`),
  multiplies it into the zero accumulator with the 512 × 1024 matrix it loaded, and adds the one bias row to every row.
  At `(p, j)` the product is the sum over 512 positions `k` of `[X, H](p, k) · M(k, j)`; the first 256 positions read
  `X`, the last 256 read `H`, so the sum is `Σ_k X(p, k) · M(k, j) + Σ_k H(p, k) · M(256 + k, j)`. Changing the float
  format of `X` and `H` does nothing on the extended reals. The four gates then read this pre-activation at column
  offsets 0, 256, 512 and 768, as in Spec.lean, with the point's block of the cell state in place of `c`.
-/
import proofs.«177030_j17179869186_2_alg».proof.Proof.Gen.KernelIdeal.Value
import proofs.«177030_j17179869186_2_alg».proof.Proof.Spec
import proofs.«177030_j17179869186_2_alg».proof.Proof.LibMatmul
import Idealize.ShloMosaic.Lib.ValueLayout

open scoped BigOperators
noncomputable section

namespace Cert.Lstm.Kern

open Cert.KernelIdeal Cert.KernelIdeal.Gen Idealize.ShloMosaic Idealize.ShloMosaic.ValueIdx Cert.Lstm

/-- Two 1024 × 256 blocks side by side, read in the left half. -/
theorem beside_lo (A B : FVec Ideal S1024x256 .bf16) (p : Fin 1024) (k : Fin 256) :
    concatenate S1024x512 1 [⟨S1024x256, A⟩, ⟨S1024x256, B⟩] concatenates_S1024x256_S1024x256_S1024x512_d1 (ix2 p (lo k))
      = A (ix2 p k) :=
  concatenate_pair_apply_left 1 A B _ (ix2 p (lo k)) rfl (ix2 p k) (fun b => match b with
    | ⟨0, _⟩ => rfl
    | ⟨1, _⟩ => rfl)

/-- Two 1024 × 256 blocks side by side, read in the right half. -/
theorem beside_hi (A B : FVec Ideal S1024x256 .bf16) (p : Fin 1024) (k : Fin 256) :
    concatenate S1024x512 1 [⟨S1024x256, A⟩, ⟨S1024x256, B⟩] concatenates_S1024x256_S1024x256_S1024x512_d1 (ix2 p (hi k))
      = B (ix2 p k) :=
  concatenate_pair_apply_right 1 A B _ (ix2 p (hi k)) rfl rfl (ix2 p k) (fun b hb => match b, hb with
    | ⟨0, _⟩, _ => rfl
    | ⟨1, _⟩, hb => absurd rfl hb) (by show k.val + 256 = 256 + k.val; omega)

/-- The pre-activation a grid point computes at `(p, j)` from its blocks `X`, `H`, the matrix `M` and the bias row. -/
def preBlk (X H : Vec Ideal S1024x256 .f32) (M : Vec Ideal S512x1024 .bf16) (bias : Vec Ideal S1x1024 .f32)
    (p : Fin 1024) (j : Fin 1024) : EReal :=
  ((∑ k : Fin 256, X (ix2 p k) * M (ix2 (lo k) j)) + ∑ k : Fin 256, H (ix2 p k) * M (ix2 (hi k) j))
    + bias (ix2 (0 : Fin 1) j)

/-- The body's pre-activation value at `(p, j)`. -/
theorem pay1_apply (X H : Vec Ideal S1024x256 .f32) (M : Vec Ideal S512x1024 .bf16) (bias : Vec Ideal S1x1024 .f32)
    (p : Fin 1024) (j : Fin 1024) :
    k0_pay1 (F := Ideal) X H M bias (ix2 p j) = preBlk X H M bias p j := by
  unfold k0_pay1 preBlk
  show addf (matmul (F := Ideal) dot_S1024x512_S512x1024_S1024x1024_1_0_0_1_n_n none
      (concatenate S1024x512 1 [⟨S1024x256, truncf .bf16 X bitsLt_bf16_f32⟩, ⟨S1024x256, truncf .bf16 H bitsLt_bf16_f32⟩]
        concatenates_S1024x256_S1024x256_S1024x512_d1)
      (shapeCast S512x1024 M shapeCasts_S512x1024_S512x1024) (constant S1024x1024 .f32 0x00000000#32))
    (broadcastTo S1024x1024 (shapeCast S1x1024 bias shapeCasts_S1x1024_S1x1024) broadcasts_S1x1024_S1024x1024) (ix2 p j) = _
  rw [addf_apply, shapeCast_self, shapeCast_self]
  refine congrArg₂ (· + ·) ?_ (broadcastTo_1b_ab_apply bias _ p j)
  refine (Cert.MatOps.matmul_plain_zero_apply (M := 1024) (K := 512) (N := 1024) (φ₁ := .bf16) (φ₂ := .bf16) none _ M p j).trans ?_
  rw [sum_halves]
  refine congrArg₂ (· + ·) (Finset.sum_congr rfl fun k _ => ?_) (Finset.sum_congr rfl fun k _ => ?_)
  · rw [beside_lo]; rfl
  · rw [beside_hi]; rfl

/-- The block of the new cell state a grid point leaves, at `(p, q)`; `C` is the point's block of the cell state. -/
theorem cell_blk (X H C : Vec Ideal S1024x256 .f32) (M : Vec Ideal S512x1024 .bf16) (bias : Vec Ideal S1x1024 .f32)
    (p : Fin 1024) (q : Fin 256) :
    Cert.KernelIdeal.Value.E6 (F := Ideal) X H M bias C (ix2 p q)
      = Ideal.logistic (preBlk X H M bias p (colF q)) * C (ix2 p q)
        + Ideal.logistic (preBlk X H M bias p (colI q)) * Ideal.tanh (preBlk X H M bias p (colG q)) := by
  have e0 : Cert.KernelIdeal.Value.ix6_0 (ix2 p q) = ix2 p (colF q) := funext fun a => Fin.ext (by
    match a with
    | ⟨0, _⟩ => rfl
    | ⟨1, _⟩ => show q.val + 256 = 256 + q.val; omega)
  have e1 : Cert.KernelIdeal.Value.ix6_1 (ix2 p q) = ix2 p q := funext fun a => Fin.ext (by
    match a with
    | ⟨0, _⟩ => rfl
    | ⟨1, _⟩ => rfl)
  have e2 : Cert.KernelIdeal.Value.ix6_2 (ix2 p q) = ix2 p (colI q) := funext fun a => Fin.ext (by
    match a with
    | ⟨0, _⟩ => rfl
    | ⟨1, _⟩ => rfl)
  have e3 : Cert.KernelIdeal.Value.ix6_3 (ix2 p q) = ix2 p (colG q) := funext fun a => Fin.ext (by
    match a with
    | ⟨0, _⟩ => rfl
    | ⟨1, _⟩ => show q.val + 512 = 512 + q.val; omega)
  show FloatOps.addf (FloatOps.mulf (FloatOps.logistic (k0_pay1 X H M bias (Cert.KernelIdeal.Value.ix6_0 (ix2 p q)))) (C (Cert.KernelIdeal.Value.ix6_1 (ix2 p q))))
      (FloatOps.mulf (FloatOps.logistic (k0_pay1 X H M bias (Cert.KernelIdeal.Value.ix6_2 (ix2 p q)))) (FloatOps.tanh (k0_pay1 X H M bias (Cert.KernelIdeal.Value.ix6_3 (ix2 p q))))) = _
  rw [e0, e1, e2, e3, pay1_apply, pay1_apply, pay1_apply]
  rfl

/-- The block of the new hidden state a grid point leaves, at `(p, q)`. -/
theorem hidden_blk (X H C : Vec Ideal S1024x256 .f32) (M : Vec Ideal S512x1024 .bf16) (bias : Vec Ideal S1x1024 .f32)
    (p : Fin 1024) (q : Fin 256) :
    Cert.KernelIdeal.Value.E5 (F := Ideal) X H M bias C (ix2 p q)
      = Ideal.logistic (preBlk X H M bias p (colO q))
        * Ideal.tanh (Ideal.logistic (preBlk X H M bias p (colF q)) * C (ix2 p q)
          + Ideal.logistic (preBlk X H M bias p (colI q)) * Ideal.tanh (preBlk X H M bias p (colG q))) := by
  have e0 : Cert.KernelIdeal.Value.ix5_0 (ix2 p q) = ix2 p (colO q) := funext fun a => Fin.ext (by
    match a with
    | ⟨0, _⟩ => rfl
    | ⟨1, _⟩ => show q.val + 768 = 768 + q.val; omega)
  have e1 : Cert.KernelIdeal.Value.ix5_1 (ix2 p q) = ix2 p (colF q) := funext fun a => Fin.ext (by
    match a with
    | ⟨0, _⟩ => rfl
    | ⟨1, _⟩ => show q.val + 256 = 256 + q.val; omega)
  have e2 : Cert.KernelIdeal.Value.ix5_2 (ix2 p q) = ix2 p q := funext fun a => Fin.ext (by
    match a with
    | ⟨0, _⟩ => rfl
    | ⟨1, _⟩ => rfl)
  have e3 : Cert.KernelIdeal.Value.ix5_3 (ix2 p q) = ix2 p (colI q) := funext fun a => Fin.ext (by
    match a with
    | ⟨0, _⟩ => rfl
    | ⟨1, _⟩ => rfl)
  have e4 : Cert.KernelIdeal.Value.ix5_4 (ix2 p q) = ix2 p (colG q) := funext fun a => Fin.ext (by
    match a with
    | ⟨0, _⟩ => rfl
    | ⟨1, _⟩ => show q.val + 512 = 512 + q.val; omega)
  show FloatOps.mulf (FloatOps.logistic (k0_pay1 X H M bias (Cert.KernelIdeal.Value.ix5_0 (ix2 p q))))
      (FloatOps.tanh (FloatOps.addf (FloatOps.mulf (FloatOps.logistic (k0_pay1 X H M bias (Cert.KernelIdeal.Value.ix5_1 (ix2 p q)))) (C (Cert.KernelIdeal.Value.ix5_2 (ix2 p q))))
        (FloatOps.mulf (FloatOps.logistic (k0_pay1 X H M bias (Cert.KernelIdeal.Value.ix5_3 (ix2 p q)))) (FloatOps.tanh (k0_pay1 X H M bias (Cert.KernelIdeal.Value.ix5_4 (ix2 p q))))))) = _
  rw [e0, e1, e2, e3, e4, pay1_apply, pay1_apply, pay1_apply, pay1_apply]
  rfl

end Cert.Lstm.Kern
-- ==== Proof.Blocks.lean ====
/-
  From the grid points' blocks to the two result arrays.

  The region finds `x`, `h`, `c` as launched; the matrix it stages is `W` stacked on `U` (512 × 1024, its float format
  changed, which does nothing on the extended reals) and the bias as one row. Grid point `t` of 64 loads rows
  `1024·t … 1024·t + 1023` of `x`, `h` and `c`, the whole stacked matrix and the bias row, and writes back rows
  `1024·t … 1024·t + 1023` of both results. Row `k` of the stacked matrix is row `k` of `W` for `k < 256` and row
  `k - 256` of `U` after that, so the point's pre-activation at `(p, j)` is the pre-activation of Spec.lean at row
  `1024·t + p`. Row `r` of a result lies in the block of point `r / 1024`: the 64 blocks cover the array, and each result
  array ends as the array of Spec.lean.
-/
import proofs.«177030_j17179869186_2_alg».proof.Proof.Gen.KernelIdeal.Value
import proofs.«177030_j17179869186_2_alg».proof.Proof.Gate
import Idealize.ShloMosaic.Lib.Pipeline.Value
import Idealize.ShloMosaic.Lib.StableHlo.Run
import Idealize.ShloMosaic.Lib.ValueLayout

open scoped BigOperators
noncomputable section

namespace Cert.Lstm.Kern

open Cert.KernelIdeal Cert.KernelIdeal.Gen Idealize.ShloMosaic Idealize.ShloMosaic.TcCoe Idealize.SL.Sem
open Idealize.ShloMosaic.ValueIdx Idealize.ShloMosaic.StableHlo Cert.Lstm
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index of every window at every grid point: the row blocks move with the point, the stacked matrix and the
    bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of grid point `t`'s block is row `1024·t + p` of the array. -/
def row (t : Fin cfg0.N) (p : Fin 1024) : Fin 65536 :=
  ⟨t.val * 1024 + p.val, by have h := t.isLt; have hN : cfg0.N = 64 := N_0; have hp := p.isLt; omega⟩

/-! ## The two windows the host wrote -/

/-- The matrix the region stages: `W` stacked on `U`. -/
theorem V_stacked (c : Dev nD) :
    (V m c main_call0_v1 : S512x1024.Idx → Elt Ideal .bf16)
      = truncf (F := Ideal) .bf16 (concatenate S512x1024 0 [⟨S256x1024, (m ((c : Thread nD τ).loc main_arg3) : S256x1024.Idx → Elt Ideal .f32)⟩,
          ⟨S256x1024, (m ((c : Thread nD τ).loc main_arg4) : S256x1024.Idx → Elt Ideal .f32)⟩] concatenates_S256x1024_S256x1024_S512x1024_d0) bitsLt_bf16_f32 := by
  dsimp only [V, hostOps0]
  after_results
  rfl

/-- The bias as the region stages it: one row. -/
theorem V_biasrow (c : Dev nD) :
    (V m c main_call0_v2 : S1x1024.Idx → Elt Ideal .f32)
      = shapeCast S1x1024 (m ((c : Thread nD τ).loc main_arg5) : S1024.Idx → Elt Ideal .f32) shapeCasts_S1024_S1x1024 := by
  dsimp only [V, hostOps0]
  after_results
  rfl

/-- The staged matrix in its first 256 rows is `W`. -/
theorem stacked_lo (c : Dev nD) (k : Fin 256) (j : Fin 1024) :
    (V m c main_call0_v1 : S512x1024.Idx → Elt Ideal .bf16) (ix2 (lo k) j)
      = (m ((c : Thread nD τ).loc main_arg3) : S256x1024.Idx → Elt Ideal .f32) (ix2 k j) := by
  rw [V_stacked, truncf_apply]
  exact concatenate_pair_apply_left (t := S512x1024) (s₁ := S256x1024) (s₂ := S256x1024) 0 _ _
    concatenates_S256x1024_S256x1024_S512x1024_d0 (ix2 (lo k) j) rfl (ix2 k j) (fun b => match b with
    | ⟨0, _⟩ => rfl
    | ⟨1, _⟩ => rfl)

/-- The staged matrix in its last 256 rows is `U`. -/
theorem stacked_hi (c : Dev nD) (k : Fin 256) (j : Fin 1024) :
    (V m c main_call0_v1 : S512x1024.Idx → Elt Ideal .bf16) (ix2 (hi k) j)
      = (m ((c : Thread nD τ).loc main_arg4) : S256x1024.Idx → Elt Ideal .f32) (ix2 k j) := by
  rw [V_stacked, truncf_apply]
  exact concatenate_pair_apply_right (t := S512x1024) (s₁ := S256x1024) (s₂ := S256x1024) 0 _ _
    concatenates_S256x1024_S256x1024_S512x1024_d0 (ix2 (hi k) j) rfl rfl (ix2 k j) (fun b hb => match b, hb with
    | ⟨0, _⟩, hb => absurd rfl hb
    | ⟨1, _⟩, _ => rfl) (by show k.val + 256 = 256 + k.val; omega)

/-- The staged bias row at column `j` is `b(j)`. -/
theorem biasrow_apply (c : Dev nD) (j : Fin 1024) :
    (V m c main_call0_v2 : S1x1024.Idx → Elt Ideal .f32) (ix2 (0 : Fin 1) j)
      = (m ((c : Thread nD τ).loc main_arg5) : S1024.Idx → Elt Ideal .f32) (ix1 j) := by
  rw [V_biasrow]
  exact shapeCast_a_1a_apply _ _ 0 j

/-! ## The blocks a grid point loads -/

/-- Grid point `t`'s block of `x` at `(p, k)` is `x(1024·t + p, k)`. -/
theorem blkX_apply (c : Dev nD) (t : Fin cfg0.N) (p : Fin 1024) (k : Fin 256) :
    (iblk m c 0 t : Vec Ideal S1024x256 .f32) (ix2 p k)
      = (m ((c : Thread nD τ).loc main_arg0) : S65536x256.Idx → Elt Ideal .f32) (ix2 (row t p) k) := by
  obtain ⟨e0, e1, -⟩ := idx_facts t
  unfold iblk
  rw [View.read_apply]
  show V m c main_arg0 _ = _
  rw [V_main_arg0]
  refine congrArg (m ((c : Thread nD τ).loc main_arg0) : S65536x256.Idx → Elt Ideal .f32) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

/-- Grid point `t`'s block of `h` at `(p, k)` is `h(1024·t + p, k)`. -/
theorem blkH_apply (c : Dev nD) (t : Fin cfg0.N) (p : Fin 1024) (k : Fin 256) :
    (iblk m c 1 t : Vec Ideal S1024x256 .f32) (ix2 p k)
      = (m ((c : Thread nD τ).loc main_arg1) : S65536x256.Idx → Elt Ideal .f32) (ix2 (row t p) k) := by
  obtain ⟨-, -, e0, e1, -⟩ := idx_facts t
  unfold iblk
  rw [View.read_apply]
  show V m c main_arg1 _ = _
  rw [V_main_arg1]
  refine congrArg (m ((c : Thread nD τ).loc main_arg1) : S65536x256.Idx → Elt Ideal .f32) (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 256 + 1 * k.val = k.val; rw [e1]; omega

/-- Grid point `t`'s block of `c` at `(p, q)` is `c(1024·t + p, q)`. -/
theorem blkC_apply (c : Dev nD) (t : Fin cfg0.N) (p : Fin 1024) (q : Fin 256) :
    (iblk m c 2 t : Vec Ideal S1024x256 .f32) (ix2 p q)
      = (m ((c : Thread nD τ).loc main_arg2) : S65536x256.Idx → Elt Ideal .f32) (ix2 (row t p) q) := by
  obtain ⟨-, -, -, -, e0, e1, -⟩ := idx_facts t
  unfold iblk
  rw [View.read_apply]
  show V m c main_arg2 _ = _
  rw [V_main_arg2]
  refine congrArg (m ((c : Thread nD τ).loc main_arg2) : S65536x256.Idx → Elt Ideal .f32) (funext fun a => Fin.ext ?_)
  match a with
  | ⟨0, _⟩ => show win0_2.index t (0 : Fin 2) * 1024 + 1 * p.val = t.val * 1024 + p.val; rw [e0]; omega
  | ⟨1, _⟩ => show win0_2.index t (1 : Fin 2) * 256 + 1 * q.val = q.val; rw [e1]; omega

/-- Every grid point's block of the staged matrix is the whole matrix. -/
theorem blkM_apply (c : Dev nD) (t : Fin cfg0.N) (k : Fin 512) (j : Fin 1024) :
    (iblk m c 3 t : Vec Ideal S512x1024 .bf16) (ix2 k j)
      = (V m c main_call0_v1 : S512x1024.Idx → Elt Ideal .bf16) (ix2 k j) := by
  obtain ⟨-, -, -, -, -, -, e0, e1, -⟩ := idx_facts t
  unfold iblk
  rw [View.read_apply]
  show V m c main_call0_v1 _ = _
  refine congrArg (V m c main_call0_v1 : S512x1024.Idx → Elt Ideal .bf16) (funext fun a => Fin.ext ?_)
  match a with
  | ⟨0, _⟩ => show win0_3.index t (0 : Fin 2) * 512 + 1 * k.val = k.val; rw [e0]; omega
  | ⟨1, _⟩ => show win0_3.index t (1 : Fin 2) * 1024 + 1 * j.val = j.val; rw [e1]; omega

/-- Every grid point's block of the staged bias is the whole row. -/
theorem blkB_apply (c : Dev nD) (t : Fin cfg0.N) (j : Fin 1024) :
    (iblk m c 4 t : Vec Ideal S1x1024 .f32) (ix2 (0 : Fin 1) j)
      = (V m c main_call0_v2 : S1x1024.Idx → Elt Ideal .f32) (ix2 (0 : Fin 1) j) := by
  obtain ⟨-, -, -, -, -, -, -, -, e0, e1, -⟩ := idx_facts t
  unfold iblk
  rw [View.read_apply]
  show V m c main_call0_v2 _ = _
  refine congrArg (V m c main_call0_v2 : S1x1024.Idx → Elt Ideal .f32) (funext fun a => Fin.ext ?_)
  match a with
  | ⟨0, _⟩ => show win0_4.index t (0 : Fin 2) * 1 + 1 * 0 = 0; rw [e0]
  | ⟨1, _⟩ => show win0_4.index t (1 : Fin 2) * 1024 + 1 * j.val = j.val; rw [e1]; omega

/-- A grid point's pre-activation at `(p, j)` is the cell step's pre-activation at row `1024·t + p`. -/
theorem preBlk_eq (c : Dev nD) (t : Fin cfg0.N) (p : Fin 1024) (j : Fin 1024) :
    preBlk (iblk m c 0 t) (iblk m c 1 t) (iblk m c 3 t) (iblk m c 4 t) p j
      = pre (m ((c : Thread nD τ).loc main_arg0)) (m ((c : Thread nD τ).loc main_arg1)) (m ((c : Thread nD τ).loc main_arg3))
          (m ((c : Thread nD τ).loc main_arg4)) (m ((c : Thread nD τ).loc main_arg5)) (row t p) j := by
  unfold preBlk pre
  refine congrArg₂ (· + ·) (congrArg₂ (· + ·) (Finset.sum_congr rfl fun k _ => ?_) (Finset.sum_congr rfl fun k _ => ?_)) ?_
  · rw [blkX_apply, blkM_apply, stacked_lo]
  · rw [blkH_apply, blkM_apply, stacked_hi]
  · rw [blkB_apply, biasrow_apply]

/-! ## What a grid point writes back, and the arrays after the run -/

/-- Entry `(p, q)` of grid point `t`'s block of the first result sits at `(1024·t + p, q)` of the array. -/
theorem embH (t : Fin cfg0.N) (p : Fin 1024) (q : Fin 256) :
    (((cfg0.win 5).blk t).view.emb (ix2 p q) : S65536x256.Idx) = ix2 (row t p) q := by
  obtain ⟨-, -, -, -, -, -, -, -, -, -, e0, e1, -⟩ := idx_facts t
  funext a
  apply Fin.ext
  match a with
  | ⟨0, _⟩ => show win0_5.index t (0 : Fin 2) * 1024 + 1 * p.val = t.val * 1024 + p.val; rw [e0]; omega
  | ⟨1, _⟩ => show win0_5.index t (1 : Fin 2) * 256 + 1 * q.val = q.val; rw [e1]; omega

/-- Entry `(p, q)` of grid point `t`'s block of the second result sits at `(1024·t + p, q)` of the array. -/
theorem embC (t : Fin cfg0.N) (p : Fin 1024) (q : Fin 256) :
    (((cfg0.win 6).blk t).view.emb (ix2 p q) : S65536x256.Idx) = ix2 (row t p) q := by
  obtain ⟨-, -, -, -, -, -, -, -, -, -, -, -, e0, e1⟩ := idx_facts t
  funext a
  apply Fin.ext
  match a with
  | ⟨0, _⟩ => show win0_6.index t (0 : Fin 2) * 1024 + 1 * p.val = t.val * 1024 + p.val; rw [e0]; omega
  | ⟨1, _⟩ => show win0_6.index t (1 : Fin 2) * 256 + 1 * q.val = q.val; rw [e1]; omega

/-- What grid point `t` writes back to the second result is block `t` of the new cell state. -/
theorem flushedC_eq (c : Dev nD) (t : Fin cfg0.N) :
    (dats m 0 c).flushed 6 t = ((cfg0.win 6).blk t).view.read (Elt Ideal)
      (cellNew (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Cert.KernelIdeal.Value.flushed6]
  unfold out0_6
  simp only [View.ld_unit_zero (S := S1024x256) zero_offsets, View.ld_unit_zero (S := S512x1024) zero_offsets,
    View.ld_unit_zero (S := S1x1024) zero_offsets]
  funext y
  obtain ⟨p, q, rfl⟩ : ∃ (p : Fin 1024) (q : Fin 256), y = ix2 p q := ⟨y 0, y 1, eq_ix2 y⟩
  rw [View.read_apply]
  show (View.canon (Val := Elt Ideal) [⟨r0_0, k0_pay2 (F := Ideal) (iblk m c 0 t) (iblk m c 1 t) (iblk m c 2 t) (iblk m c 3 t) (iblk m c 4 t)⟩] : Vec Ideal S1024x256 .f32) (ix2 p q)
    = cellNew _ _ _ _ _ _ (((cfg0.win 6).blk t).view.emb (ix2 p q))
  rw [embC]
  refine (Cert.KernelIdeal.Value.canon6_eq (iblk m c 0 t) (iblk m c 1 t) (iblk m c 3 t) (iblk m c 4 t) (iblk m c 2 t) (ix2 p q)).trans ?_
  refine (cell_blk (iblk m c 0 t) (iblk m c 1 t) (iblk m c 2 t) (iblk m c 3 t) (iblk m c 4 t) p q).trans ?_
  rw [cellNew_ix2, preBlk_eq, preBlk_eq, preBlk_eq, blkC_apply]
  rfl

/-- What grid point `t` writes back to the first result is block `t` of the new hidden state. -/
theorem flushedH_eq (c : Dev nD) (t : Fin cfg0.N) :
    (dats m 0 c).flushed 5 t = ((cfg0.win 5).blk t).view.read (Elt Ideal)
      (hiddenNew (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Cert.KernelIdeal.Value.flushed5]
  unfold out0_5
  simp only [View.ld_unit_zero (S := S1024x256) zero_offsets, View.ld_unit_zero (S := S512x1024) zero_offsets,
    View.ld_unit_zero (S := S1x1024) zero_offsets]
  funext y
  obtain ⟨p, q, rfl⟩ : ∃ (p : Fin 1024) (q : Fin 256), y = ix2 p q := ⟨y 0, y 1, eq_ix2 y⟩
  rw [View.read_apply]
  show (View.canon (Val := Elt Ideal) [⟨r0_0, k0_pay3 (F := Ideal) (iblk m c 0 t) (iblk m c 1 t) (iblk m c 2 t) (iblk m c 3 t) (iblk m c 4 t)⟩] : Vec Ideal S1024x256 .f32) (ix2 p q)
    = hiddenNew _ _ _ _ _ _ (((cfg0.win 5).blk t).view.emb (ix2 p q))
  rw [embH]
  refine (Cert.KernelIdeal.Value.canon5_eq (iblk m c 0 t) (iblk m c 1 t) (iblk m c 3 t) (iblk m c 4 t) (iblk m c 2 t) (ix2 p q)).trans ?_
  refine (hidden_blk (iblk m c 0 t) (iblk m c 1 t) (iblk m c 2 t) (iblk m c 3 t) (iblk m c 4 t) p q).trans ?_
  rw [hiddenNew_ix2, preBlk_eq, preBlk_eq, preBlk_eq, preBlk_eq, blkC_apply]
  rfl

/-- An index of the first result is in grid point `t`'s block iff each coordinate is in the block's range. -/
theorem mem_blkH (t : Fin cfg0.N) (i : S65536x256.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v0_0).slice (win0_5.rect t)).set ↔ _
  rw [View.set_slice_whole, Rect.mem_set_unit]
  exact Iff.rfl

/-- An index of the second result is in grid point `t`'s block iff each coordinate is in the block's range. -/
theorem mem_blkC (t : Fin cfg0.N) (i : S65536x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v0_1).slice (win0_6.rect t)).set ↔ _
  rw [View.set_slice_whole, Rect.mem_set_unit]
  exact Iff.rfl

/-- Row `r` of the first result is in the block of grid point `r / 1024`. -/
theorem coverH (i : S65536x256.Idx) :
    ∃ t : Fin cfg0.N, (cfg0.win 5).flush t = true ∧ i ∈ ((cfg0.win 5).blk t).view.set := by
  have hi0 : (i 0).val < 65536 := (i 0).isLt
  have hi1 : (i 1).val < 256 := (i 1).isLt
  have hN : cfg0.N = 64 := N_0
  let t : Fin cfg0.N := ⟨(i 0).val / 1024, by rw [hN]; omega⟩
  obtain ⟨-, -, -, -, -, -, -, -, -, -, e0, e1, -⟩ := idx_facts t
  have ht : t.val = (i 0).val / 1024 := rfl
  refine ⟨t, flush0_5 t, ?_⟩
  rw [mem_blkH]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 256 ≤ (i 1).val ∧ (i 1).val < win0_5.index t (1 : Fin 2) * 256 + 256
    rw [e1]; omega

/-- Row `r` of the second result is in the block of grid point `r / 1024`. -/
theorem coverC (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  have hN : cfg0.N = 64 := N_0
  let t : Fin cfg0.N := ⟨(i 0).val / 1024, by rw [hN]; omega⟩
  obtain ⟨-, -, -, -, -, -, -, -, -, -, -, -, e0, e1⟩ := idx_facts t
  have ht : t.val = (i 0).val / 1024 := rfl
  refine ⟨t, flush0_6 t, ?_⟩
  rw [mem_blkC]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 256 ≤ (i 1).val ∧ (i 1).val < win0_6.index t (1 : Fin 2) * 256 + 256
    rw [e1]; omega

/-- The first result array after the run is the new hidden state. -/
theorem finalH (c : Dev nD) : (dats m 0 c).arrAt 5 cfg0.N
    = hiddenNew (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 5 _ (fun t _ => flushedH_eq m c t) coverH

/-- The second result array after the run is the new cell state. -/
theorem finalC (c : Dev nD) : (dats m 0 c).arrAt 6 cfg0.N
    = cellNew (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushedC_eq m c t) coverC

/-- The kernel's run: it ends with the two results at the new hidden state and the new cell state of its arguments,
    the arguments unchanged. -/
theorem run : θ_run defs (onTc (τ := τ) (main (F := Ideal))) ⟨m, fun _ => 0, ρ⟩ fun r => ∀ c : Dev nD,
      r.2.mem ((c : Thread nD τ).loc main_v0_0)
        = hiddenNew (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_v0_1)
        = cellNew (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (finalH m c), (h c).2.1.trans (finalC m c), (h c).2.2⟩)
    (Cert.KernelIdeal.Value.run_blocks m ρ)

end Cert.Lstm.Kern
-- ==== Proof.RefValue.lean ====
/-
  The reference computes the cell step of Spec.lean.

  Read one operation at a time, the reference's pre-activation at `(r, j)` is the sum over `k` of `x(r, k) · W(k, j)`,
  plus the sum over `k` of `h(r, k) · U(k, j)`, plus the bias `b(j)` (the bias is first made a row and then repeated
  down the rows); each gate reads that array at its own column offset. The reference spells the logistic function as
  the quotient `1 / (1 + exp(-z))` with the float word of `1.0`; on the extended reals that quotient IS the logistic
  function, by its definition. So the two results are the arrays `hiddenNew` and `cellNew`.
-/
import proofs.«177030_j17179869186_2_alg».proof.Proof.Gen.ReferenceIdeal.Read
import proofs.«177030_j17179869186_2_alg».proof.Proof.Spec
import Idealize.ShloMosaic.Lib.IdealHost

open scoped BigOperators
noncomputable section

namespace Cert.Lstm.Ref

open Cert.ReferenceIdeal Cert.ReferenceIdeal.Read Idealize.ShloMosaic Idealize.ShloMosaic.ValueIdx Cert.Lstm

variable (x0 x1 x2 : (⟨S65536x256, .f32⟩ : BufTy).Contents (Elt Ideal))
  (x3 x4 : (⟨S256x1024, .f32⟩ : BufTy).Contents (Elt Ideal)) (x5 : (⟨S1024, .f32⟩ : BufTy).Contents (Elt Ideal))

/-- The quotient `1 / (1 + exp(-z))`, the numerator and the summand the float word of one, is the logistic function. -/
theorem quotient_eq_logistic (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  rw [Ideal.ofBits_def, Ideal.ofBits_one_f32]
  rfl

/-- The reference's pre-activation array at `(r, j)`. -/
theorem pre_eq (r : Fin 65536) (j : Fin 1024) :
    val_main_v5 (F := Ideal) x0 x1 x3 x4 x5 (ix2 r j) = pre x0 x1 x3 x4 x5 r j := by
  have el0 : ∀ k : Fin 256, lidx_main_v0 (ix2 r j) k = ix2 r k := fun k => funext fun a => by
    match a with | ⟨0, _⟩ => rfl | ⟨1, _⟩ => rfl
  have er0 : ∀ k : Fin 256, ridx_main_v0 (ix2 r j) k = ix2 k j := fun k => funext fun a => by
    match a with | ⟨0, _⟩ => rfl | ⟨1, _⟩ => rfl
  have el1 : ∀ k : Fin 256, lidx_main_v1 (ix2 r j) k = ix2 r k := fun k => funext fun a => by
    match a with | ⟨0, _⟩ => rfl | ⟨1, _⟩ => rfl
  have er1 : ∀ k : Fin 256, ridx_main_v1 (ix2 r j) k = ix2 k j := fun k => funext fun a => by
    match a with | ⟨0, _⟩ => rfl | ⟨1, _⟩ => rfl
  have eb : idx_main_v3 (idx_main_v4 (ix2 r j)) = ix1 j := funext fun a => by
    match a with | ⟨0, _⟩ => rfl
  rw [val_main_v5_apply, val_main_v2_apply, val_main_v0_apply, val_main_v1_apply, val_main_v4_apply, val_main_v3_apply, eb]
  simp only [el0, er0, el1, er1]
  rfl

/-- The input gate: the logistic function of the pre-activation at column `q`. -/
theorem gateI_eq (r : Fin 65536) (q : Fin 256) :
    val_main_v15 (F := Ideal) x0 x1 x3 x4 x5 (ix2 r q) = Ideal.logistic (pre x0 x1 x3 x4 x5 r (colI q)) := by
  have e : idx_main_v6 (ix2 r q) = ix2 r (colI q) := funext fun a => by
    match a with | ⟨0, _⟩ => rfl | ⟨1, _⟩ => rfl
  rw [val_main_v15_apply, val_main_v14_apply, val_main_cst_0_apply, val_main_v13_apply, val_main_v12_apply,
    val_main_cst_apply, val_main_v11_apply, val_main_v10_apply, val_main_v6_apply, e, pre_eq, quotient_eq_logistic]

/-- The forget gate: the logistic function of the pre-activation at column `256 + q`. -/
theorem gateF_eq (r : Fin 65536) (q : Fin 256) :
    val_main_v21 (F := Ideal) x0 x1 x3 x4 x5 (ix2 r q) = Ideal.logistic (pre x0 x1 x3 x4 x5 r (colF q)) := by
  have e : idx_main_v7 (ix2 r q) = ix2 r (colF q) := funext fun a => by
    match a with | ⟨0, _⟩ => rfl | ⟨1, _⟩ => rfl
  rw [val_main_v21_apply, val_main_v20_apply, val_main_cst_2_apply, val_main_v19_apply, val_main_v18_apply,
    val_main_cst_1_apply, val_main_v17_apply, val_main_v16_apply, val_main_v7_apply, e, pre_eq, quotient_eq_logistic]

/-- The candidate: the hyperbolic tangent of the pre-activation at column `512 + q`. -/
theorem cand_eq (r : Fin 65536) (q : Fin 256) :
    val_main_v22 (F := Ideal) x0 x1 x3 x4 x5 (ix2 r q) = Ideal.tanh (pre x0 x1 x3 x4 x5 r (colG q)) := by
  have e : idx_main_v8 (ix2 r q) = ix2 r (colG q) := funext fun a => by
    match a with | ⟨0, _⟩ => rfl | ⟨1, _⟩ => rfl
  rw [val_main_v22_apply, val_main_v8_apply, e, pre_eq]
  rfl

/-- The output gate: the logistic function of the pre-activation at column `768 + q`. -/
theorem gateO_eq (r : Fin 65536) (q : Fin 256) :
    val_main_v28 (F := Ideal) x0 x1 x3 x4 x5 (ix2 r q) = Ideal.logistic (pre x0 x1 x3 x4 x5 r (colO q)) := by
  have e : idx_main_v9 (ix2 r q) = ix2 r (colO q) := funext fun a => by
    match a with | ⟨0, _⟩ => rfl | ⟨1, _⟩ => rfl
  rw [val_main_v28_apply, val_main_v27_apply, val_main_cst_4_apply, val_main_v26_apply, val_main_v25_apply,
    val_main_cst_3_apply, val_main_v24_apply, val_main_v23_apply, val_main_v9_apply, e, pre_eq, quotient_eq_logistic]

/-- The reference's new cell state at `(r, q)`. -/
theorem cell_at (r : Fin 65536) (q : Fin 256) :
    val_main_v31 (F := Ideal) x0 x1 x2 x3 x4 x5 (ix2 r q) = cellAt x0 x1 x2 x3 x4 x5 r q := by
  rw [val_main_v31_apply, val_main_v29_apply, val_main_v30_apply, gateF_eq, gateI_eq, cand_eq]
  rfl

/-- The reference's second result is the new cell state. -/
theorem cell_eq : val_main_v31 (F := Ideal) x0 x1 x2 x3 x4 x5 = cellNew x0 x1 x2 x3 x4 x5 := by
  funext i
  obtain ⟨r, q, rfl⟩ : ∃ (r : Fin 65536) (q : Fin 256), i = ix2 r q := ⟨i 0, i 1, eq_ix2 i⟩
  rw [cell_at, cellNew_ix2]

/-- The reference's first result is the new hidden state. -/
theorem hidden_eq : val_main_v33 (F := Ideal) x0 x1 x2 x3 x4 x5 = hiddenNew x0 x1 x2 x3 x4 x5 := by
  funext i
  obtain ⟨r, q, rfl⟩ : ∃ (r : Fin 65536) (q : Fin 256), i = ix2 r q := ⟨i 0, i 1, eq_ix2 i⟩
  rw [val_main_v33_apply, val_main_v32_apply, gateO_eq, cell_at, hiddenNew_ix2]
  rfl

end Cert.Lstm.Ref
-- ==== Proof.lean ====
/-
  The kernel and the reference compute one step of a long short-term memory cell, and end with the same two arrays on
  the extended reals.

  With `z(r, j) = (Σ_k x(r, k) · W(k, j) + Σ_k h(r, k) · U(k, j)) + b(j)` and σ the logistic function,
    c'(r, q) = σ(z(r, 256 + q)) · c(r, q) + σ(z(r, q)) · tanh(z(r, 512 + q)),
    h'(r, q) = σ(z(r, 768 + q)) · tanh(c'(r, q))
  (Proof/Spec.lean). The reference forms the two products separately, adds them and the bias, and writes σ as the
  quotient `1 / (1 + exp(-z))`, which is σ by definition (Proof/RefValue.lean). The kernel stacks `W` on `U`, and each
  of its 64 grid points multiplies its 1024 rows of `[x, h]` (512 columns) with that 512 × 1024 matrix: a sum over 512
  positions is the sum over the first 256 plus the sum over the last 256, which are the reference's two products
  (Proof/Gate.lean); the blocks the points write back cover both result arrays (Proof/Blocks.lean). No step uses that
  the inputs are finite: the sums are only regrouped, never distributed over. Changing a float format does nothing on
  the extended reals, and the idealized kernel is the kernel's own text read there, so nothing is owed for that.
-/
import proofs.«177030_j17179869186_2_alg».proof.Defs
import proofs.«177030_j17179869186_2_alg».proof.Proof.Gen.Kernel
import proofs.«177030_j17179869186_2_alg».proof.Proof.Gen.Kernel.Skeleton
import proofs.«177030_j17179869186_2_alg».proof.Proof.Gen.Kernel.Launch
import proofs.«177030_j17179869186_2_alg».proof.Proof.Gen.Kernel.Points
import proofs.«177030_j17179869186_2_alg».proof.Proof.Gen.Kernel.Frame
import proofs.«177030_j17179869186_2_alg».proof.Proof.Gen.KernelIdeal
import proofs.«177030_j17179869186_2_alg».proof.Proof.Gen.KernelIdeal.Skeleton
import proofs.«177030_j17179869186_2_alg».proof.Proof.Gen.KernelIdeal.Launch
import proofs.«177030_j17179869186_2_alg».proof.Proof.Gen.KernelIdeal.Points
import proofs.«177030_j17179869186_2_alg».proof.Proof.Gen.KernelIdeal.Frame
import proofs.«177030_j17179869186_2_alg».proof.Proof.Gen.ReferenceIdeal
import proofs.«177030_j17179869186_2_alg».proof.Proof.Gen.KernelIdeal.Value
import proofs.«177030_j17179869186_2_alg».proof.Proof.Gen.ReferenceIdeal.Run
import proofs.«177030_j17179869186_2_alg».proof.Proof.Gen.ReferenceIdeal.Read
import proofs.«177030_j17179869186_2_alg».proof.Proof.Gen.Pre_finite_inputs
import proofs.«177030_j17179869186_2_alg».proof.Proof.Blocks
import proofs.«177030_j17179869186_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing of the kernel was rewritten to read it on the extended reals. -/
theorem preserves : Cert.preserves_Kernel_KernelIdeal := trivial

/-- From memories that agree on the six arguments both programs end with the new hidden state and the new cell state
    of those arguments. -/
theorem algebraic : Cert.algebraic_KernelIdeal_ReferenceIdeal := by
  intro m ρ m' ρ' _ hagree
  refine ⟨_, _, Cert.Lstm.Kern.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v33_eq, Cert.Lstm.Ref.hidden_eq, (hagree c).1, (hagree c).2.1, (hagree c).2.2.1,
      (hagree c).2.2.2.1, (hagree c).2.2.2.2.1, (hagree c).2.2.2.2.2]
  · rw [Cert.ReferenceIdeal.Read.val_main_v31_eq, Cert.Lstm.Ref.cell_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
